-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S1048576 : Shape := ⟨1, ![1048576]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel

variable [Facts]

def fn {F : FTy → Type} [FloatOps F] (main_arg0 : FVec F S1048576x64 .f32) (main_arg1 : FVec F S1048576x64 .f32) (main_arg2 : IVec S1048576 32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x64 .f32 := Host.absf main_arg1
  let main_cst_0 : FVec F S_ .f32 := constant S_ .f32 0x7F800000#32
  let main_v5 : FVec F S1048576x64 .f32 := broadcastInDim S1048576x64 ![] bcast_S_S1048576x64 main_cst_0
  let main_v6 : IVec S1048576x64 1 := cmpf .olt main_v4 main_v5
  let main_c_1 : IVec S_ 1 := constantI S_ 1 1#1
  let main_v7 : IVec S_ 1 := (fun x v => Host.reduce IntOp.andi x v reducesTo_S1048576x64_S_d0_1 h_S_) main_v6 main_c_1
  let main_v8 : IVec S_ 1 := andi main_v3 main_v7
  main_v8
-- ==== Kernel.lean ====
abbrev S1048576x64 : Shape := ⟨2, ![1048576, 64]⟩
abbrev S1048576 : Shape := ⟨1, ![1048576]⟩
abbrev S524288x128 : Shape := ⟨2, ![524288, 128]⟩
abbrev S524288x2 : Shape := ⟨2, ![524288, 2]⟩
abbrev S16x128 : Shape := ⟨2, ![16, 128]⟩
abbrev S4096x128 : Shape := ⟨2, ![4096, 128]⟩
abbrev S4096x2 : Shape := ⟨2, ![4096, 2]⟩
abbrev S8x128 : Shape := ⟨2, ![8, 128]⟩
abbrev S4096x64 : Shape := ⟨2, ![4096, 64]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S_ : Shape := ⟨0, ![]⟩

abbrev nBuf : Space → Nat
  | .hbm => 14
  | .vmem => 8
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576, .i32⟩
  | .hbm, ⟨3, _⟩ => ⟨S524288x128, .f32⟩
  | .hbm, ⟨4, _⟩ => ⟨S524288x128, .f32⟩
  | .hbm, ⟨5, _⟩ => ⟨S524288x2, .i32⟩
  | .hbm, ⟨6, _⟩ => ⟨S16x128, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x2, .i32⟩
  | .local _ .vmem, ⟨5, _⟩ => ⟨S4096x2, .i32⟩
  | .local _ .vmem, ⟨6, _⟩ => ⟨S8x128, .f32⟩
  | .local _ .vmem, ⟨7, _⟩ => ⟨S8x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1048576x64_S524288x128 : S1048576x64.ShapeCasts S524288x128
  shapeCasts_S1048576_S524288x2 : S1048576.ShapeCasts S524288x2
  inb_S8x128_S8x128_0_0 : ∀ a, (![0, 0] : Fin 2 → Nat) a + S8x128.size a ≤ S8x128.size a
  h_S8x128 : 0 < S8x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S4096x128_o0_0_S4096x64 : S4096x128.Slices ![0, 0] S4096x64
  slices_S4096x128_o0_64_S4096x64 : S4096x128.Slices ![0, 64] S4096x64
  reduces_S4096x64_S4096 : S4096x64.Reduces [1] S4096
  shapeCasts_S4096_S4096x1 : S4096.ShapeCasts S4096x1
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  slices_S4096x2_o0_0_S4096x1 : S4096x2.Slices ![0, 0] S4096x1
  slices_S4096x2_o0_1_S4096x1 : S4096x2.Slices ![0, 1] S4096x1
  reduces_S4096x1_S1 : S4096x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x2.size a ≤ S524288x2.size a
  hwx0_2 : ∀ i : grid0.Coords, EltTy.bits .i32 = 32 ∨ (Rect.block (s := S524288x2) S4096x2.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S1048576 : Shape := ⟨1, ![1048576]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576, .i32⟩
  | .hbm, ⟨3, _⟩ => ⟨S1048576x64, .f32⟩
  | .hbm, ⟨4, _⟩ => ⟨S1048576x64, .f32⟩
  | .hbm, ⟨5, _⟩ => ⟨S_, .f32⟩
  | .hbm, ⟨6, _⟩ => ⟨S1048576, .f32⟩
  | .hbm, ⟨7, _⟩ => ⟨S1048576, .f32⟩
  | .hbm, ⟨8, _⟩ => ⟨S1048576, .f32⟩
  | .hbm, ⟨9, _⟩ => ⟨S_, .i32⟩
  | .hbm, ⟨10, _⟩ => ⟨S1048576, .i32⟩
  | .hbm, ⟨11, _⟩ => ⟨S1048576, .i1⟩
  | .hbm, ⟨12, _⟩ => ⟨S_, .f32⟩
  | .hbm, ⟨13, _⟩ => ⟨S_, .f32⟩
  | .hbm, ⟨14, _⟩ => ⟨S1048576, .f32⟩
  | .hbm, ⟨15, _⟩ => ⟨S1048576, .f32⟩
  | .hbm, ⟨16, _⟩ => ⟨S1048576, .f32⟩
  | .hbm, ⟨17, _⟩ => ⟨S1048576, .f32⟩
  | .hbm, ⟨18, _⟩ => ⟨S1048576, .f32⟩
  | .hbm, ⟨19, _⟩ => ⟨S_, .f32⟩
  | .hbm, ⟨20, _⟩ => ⟨S1048576, .f32⟩
  | .hbm, ⟨21, _⟩ => ⟨S1048576, .f32⟩
  | .hbm, ⟨22, _⟩ => ⟨S_, .f32⟩
  | .hbm, ⟨23, _⟩ => ⟨S1048576, .f32⟩
  | .hbm, ⟨24, _⟩ => ⟨S1048576, .f32⟩
  | .hbm, ⟨25, _⟩ => ⟨S_, .f32⟩
  | .hbm, ⟨26, _⟩ => ⟨S_, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_call1_cst : Ref sig .tc := ⟨.hbm, 22, rfl⟩
abbrev main_call1_v0 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩

abbrev nD : Nat := 1
abbrev τ : Topo := Topo.v7x

variable {F : FTy → Type} [FloatOps F]

class Facts₀ : Prop where
  reducesTo_S1048576x64_S1048576_d1 : S1048576x64.ReducesTo [1] S1048576
  h_S_ : 0 < S_.numel
  bcast_S_S1048576 : S_.BroadcastsInDim S1048576 (![] : Fin 0 → Fin S1048576.rank)
  reducesTo_S1048576_S_d0 : S1048576.ReducesTo [0] S_

variable [Facts₀]

class Facts : Prop extends Facts₀ where

variable [Facts]
-- ==== Proof.BodyPieces.lean ====
/-
  What one grid point leaves in a core's output block, for any float instance.

  The body computes two 1×1 partial sums from the point's three input blocks (the even rows' and the odd rows'), adds
  them, broadcasts the result over the 8×128 block and adds it to what the block held.  At the first step of a core the
  block is first overwritten with zeros, so there the body leaves the zero block plus the broadcast; at every other step
  it leaves the previous contents plus the broadcast.  Both are read off the stores the body's run performed: one store
  covering the whole block (after the zero store, in the first case), whose loads read the whole staging buffers.
-/
import proofs.«111070_j34213709479938_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- A step that is not a core's first: over a block holding `xo`, the body leaves `xo` plus the broadcast of the sum
    of the two partial sums of the step's input blocks. -/
theorem out_later (c : Dev nD) (i : grid0.Coords) (a2 : Memref sig .tc .vmem S4096x128 .f32) (h2 : a2.IsWhole)
    (a3 : Memref sig .tc .vmem S4096x128 .f32) (h3 : a3.IsWhole) (a4 : Memref sig .tc .vmem S4096x2 .i32) (h4 : a4.IsWhole)
    (a5 : Memref sig .tc .vmem S8x128 .f32) (h5 : a5.IsWhole) (hc : ¬cond0_0 i)
    (x0 x1 : Vec F S4096x128 .f32) (x2 : Vec F S4096x2 .i32) (xo : Vec F S8x128 .f32) :
    out0_B_3 c i a2 h2 a3 h3 a4 h4 a5 h5 hc x0 x1 x2 xo = k0_pay1 (k0_pay5 x1 x0 x2) (k0_pay6 x1 x0 x2) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz]
  simp only [View.readAt_eq_ld, h2.read_unread, h3.read_unread, h4.read_unread, h5.read_unread,
    View.ld_unit_zero (S := S4096x128) hz, View.ld_unit_zero (S := S4096x2) hz, View.ld_unit_zero (S := S8x128) hz]

/-- A core's first step: the body stores the zero block, reads it back, and leaves it plus the broadcast of the two
    partial sums. -/
theorem out_first (c : Dev nD) (i : grid0.Coords) (a2 : Memref sig .tc .vmem S4096x128 .f32) (h2 : a2.IsWhole)
    (a3 : Memref sig .tc .vmem S4096x128 .f32) (h3 : a3.IsWhole) (a4 : Memref sig .tc .vmem S4096x2 .i32) (h4 : a4.IsWhole)
    (a5 : Memref sig .tc .vmem S8x128 .f32) (h5 : a5.IsWhole) (hc : cond0_0 i)
    (x0 x1 : Vec F S4096x128 .f32) (x2 : Vec F S4096x2 .i32) :
    out0_A_3 c i a2 h2 a3 h3 a4 h4 a5 h5 hc x0 x1 x2 = k0_pay1 (k0_pay5 x1 x0 x2) (k0_pay6 x1 x0 x2) (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S8x128) hz, View.readCov_unit_zero (S := S8x128) _ hz]
  simp only [View.readAt_eq_ld, h2.read_unread, h3.read_unread, h4.read_unread,
    View.ld_unit_zero (S := S4096x128) hz, View.ld_unit_zero (S := S4096x2) hz, View.ld_unit_zero (S := S8x128) hz]

end Cert.KernelIdeal.Pieces

end
-- ==== Proof.LibBlockedSum.lean ====
/-
  A sum over a range cut into consecutive blocks of equal length.  General lemmas: any additive commutative monoid.

  * the sum over the first a·b naturals is the sum, over the a blocks, of each block's b terms: block s holds the
    naturals b·s, b·s + 1, …, b·s + (b − 1);
  * the same with the total written as a sum over `Fin n` for n = a·b, each term guarded by its bound, which is how
    a contraction over n columns read block by block (a product accumulated over a grid axis) meets the one
    contraction of the whole product.
-/
import Mathlib.Algebra.BigOperators.Fin
import Mathlib.Algebra.BigOperators.Intervals

namespace Cert.LibBlockedSum

open Finset

variable {β : Type*} [AddCommMonoid β]

/-- The first a·b terms of a sequence, summed block by block: a blocks of b consecutive terms each. -/
theorem sum_range_blocks (a b : ℕ) (f : ℕ → β) :
    ∑ s ∈ range a, ∑ q : Fin b, f (b * s + q.val) = ∑ k ∈ range (a * b), f k := by
  induction a with
  | zero => simp
  | succ a ih =>
    rw [sum_range_succ, ih, Nat.succ_mul, sum_range_add, Nat.mul_comm a b, Finset.sum_range (fun x => f (b * a + x))]

/-- A sum over `Fin n`, n = a·b, is the sum over the a blocks of each block's b terms; term k of block s is the
    summand at the natural b·s + k, which is below n. -/
theorem sum_fin_blocks (a b n : ℕ) (hn : a * b = n) (g : Fin n → β) :
    ∑ s ∈ range a, ∑ q : Fin b, (if h : b * s + q.val < n then g ⟨b * s + q.val, h⟩ else 0) = ∑ k : Fin n, g k := by
  subst hn
  rw [sum_range_blocks a b (fun k => if h : k < a * b then g ⟨k, h⟩ else 0), Finset.sum_range]
  exact Finset.sum_congr rfl fun k _ => by rw [dif_pos k.isLt]

end Cert.LibBlockedSum
-- ==== Proof.LibTotals.lean ====
/-
  The ends of a reduction to one number, over the extended reals.  General lemmas: any extents.

  * tanh of any extended real is a real between −1 and 1 (the limits ∓1 at the infinities);
  * a finite sum of 1 + f j is the number of terms plus the sum of the f j — commutativity and associativity of + only,
    so it holds on the extended reals with no finiteness assumption;
  * a sum over Fin n as a sum over the first n naturals, each term guarded by its bound: the form in which a sum is
    cut into consecutive blocks;
  * the indices of a vector of length n are the naturals below n: an equivalence, for re-indexing a sum taken over a
    whole vector;
  * a [1, 1] array reshaped to a scalar reads its one entry.
-/
import Idealize.ShloMosaic.PureOps.Ideal
import Idealize.ShloMosaic.Lib.Pipeline.Value
import Idealize.ShloMosaic.Lib.ValueIdx
import Mathlib.Analysis.Complex.Trigonometric
import Mathlib.Algebra.BigOperators.Fin

noncomputable section

namespace Cert.LibTotals

open Idealize.ShloMosaic Idealize.ShloMosaic.ValueIdx Finset

/-- tanh of any extended real is a real in [−1, 1]: the limits ∓1 at the infinities, strictly inside otherwise. -/
theorem tanh_real (x : EReal) : ∃ t : ℝ, Ideal.tanh x = (t : EReal) ∧ -1 ≤ t ∧ t ≤ 1 := by
  induction x using EReal.rec with
  | bot => exact ⟨-1, rfl, le_refl _, by norm_num⟩
  | top => exact ⟨1, rfl, by norm_num, le_refl _⟩
  | coe r => exact ⟨Real.tanh r, rfl, (Real.neg_one_lt_tanh r).le, (Real.tanh_lt_one r).le⟩

/-- A finite sum of 1 + f j is the number of terms plus the sum of the f j. -/
theorem sum_one_add {ι : Type*} [Fintype ι] (f : ι → EReal) :
    ∑ j, (1 + f j) = ((Fintype.card ι : ℕ) : EReal) + ∑ j, f j := by
  rw [Finset.sum_add_distrib, Finset.sum_const, Finset.card_univ, nsmul_one]

/-- A sum over Fin n as a sum over the first n naturals, each term guarded by its bound. -/
theorem sum_fin_eq_range {β : Type*} [AddCommMonoid β] {n : ℕ} (g : Fin n → β) :
    ∑ r : Fin n, g r = ∑ r ∈ range n, (if h : r < n then g ⟨r, h⟩ else 0) := by
  rw [Finset.sum_range]
  exact sum_congr rfl fun k _ => by rw [dif_pos k.isLt]

/-- A vector's indices are its one coordinate. -/
def idx1Equiv (n : ℕ) : Fin n ≃ (⟨1, ![n]⟩ : Shape).Idx where
  toFun := ix1
  invFun j := j 0
  left_inv _ := rfl
  right_inv j := (eq_ix1 j).symm

/-- A [1, 1] array reshaped to a scalar reads its one entry. -/
theorem scalar_of_11 {α : Type} (X : (⟨2, ![1, 1]⟩ : Shape).Idx → α) (h : (⟨2, ![1, 1]⟩ : Shape).ShapeCasts ⟨0, ![]⟩)
    (i : (⟨0, ![]⟩ : Shape).Idx) : shapeCast ⟨0, ![]⟩ X h i = X (ix2 0 0) := by
  have hrm : ((⟨0, ![]⟩ : Shape).rowMajor i).val = 0 := Shape.rowMajorPi_zero _ i
  exact shapeCast_apply X h i (ix2 0 0) (by rw [Shape.rowMajor_val_two, hrm]; rfl)

end Cert.LibTotals

end
-- ==== Proof.LossLaw.lean ====
/-
  The arithmetic that joins the two programs, over the extended reals.

  Each row r of the two inputs contributes x r = s r · tanh (d r), where d r is the distance between the two rows and
  s r is −1 when the row's label is 2 and 1 otherwise.  One program sums max (1 + x r) 0 over the rows; the other
  sums x r block by block and adds the number of rows at the end.  They agree because

  * tanh of any extended real is a real in [−1, 1], so 1 + x r is never negative and the maximum with 0 is the
    identity;
  * a finite sum of 1 + f j is the number of terms plus the sum of the f j (commutativity and associativity of +
    only: no finiteness is needed);
  * the sum over the first 2 · 64 · 4096 · 2 naturals is the sum, over the two halves of 64 steps each, of each
    step's 4096 even rows and 4096 odd rows.

  The three float words the programs spell (1, −1 and the number of rows, 2^20) are read here, once.
-/
import Idealize.ShloMosaic.PureOps.Ideal
import Idealize.ShloMosaic.PureOps.Ideal.Laws
import Idealize.ShloMosaic.Lib.ValueIdx
import Mathlib.Analysis.Complex.Trigonometric
import Mathlib.Algebra.BigOperators.Intervals
import Mathlib.Algebra.BigOperators.Fin
import proofs.«111070_j34213709479938_2_alg».proof.Proof.LibBlockedSum
import proofs.«111070_j34213709479938_2_alg».proof.Proof.LibTotals

noncomputable section

namespace Cert.LossLaw

open Idealize.ShloMosaic Idealize.ShloMosaic.ValueIdx Finset Cert.LibTotals

/-! ## The float words -/

/-- The word of 1.0 denotes 1. -/
theorem ofBits_one : Ideal.ofBits .f32 0x3F800000#32 = 1 := by
  simp [Ideal.ofBits, Ideal.ieee, -EReal.coe_mul]; norm_num

/-- The word of −1.0 denotes −1. -/
theorem ofBits_neg_one : Ideal.ofBits .f32 0xBF800000#32 = -1 := by
  simp [Ideal.ofBits, Ideal.ieee, -EReal.coe_mul]; norm_num

/-- The word of 1048576.0 denotes the real 2^20, -/
theorem ofBits_rows_real : Ideal.ofBits .f32 0x49800000#32 = ((1048576 : ℝ) : EReal) := by
  simp [Ideal.ofBits, Ideal.ieee, -EReal.coe_mul]; norm_num

/-- which is the number of rows. -/
theorem ofBits_rows : Ideal.ofBits .f32 0x49800000#32 = ((1048576 : ℕ) : EReal) := by
  rw [ofBits_rows_real, ← EReal.coe_natCast, Nat.cast_ofNat]

/-! ## A row's term is a real between −1 and 1 -/

/-- The sign a label selects: −1 for the label 2, 1 for any other. -/
def sgn (l : BitVec 32) : EReal :=
  Scalar.select (IntOp.cmpi .eq l 2#32) (Ideal.ofBits .f32 0xBF800000#32) (Ideal.ofBits .f32 0x3F800000#32)

theorem sgn_cases (l : BitVec 32) : sgn l = 1 ∨ sgn l = -1 := by
  unfold sgn
  by_cases h : IntOp.cmpi .eq l 2#32 = 1#1
  · rw [h, select_one, ofBits_neg_one]; exact Or.inr rfl
  · rw [eq_zero_of_ne_one h, select_zero, ofBits_one]; exact Or.inl rfl

/-- 1 + s · tanh x is never negative, so its maximum with 0 is itself. -/
theorem relu_one_add (l : BitVec 32) (x : EReal) :
    max (1 + sgn l * Ideal.tanh x) 0 = 1 + sgn l * Ideal.tanh x := by
  obtain ⟨t, ht, h1, h2⟩ := tanh_real x
  rw [ht]
  apply max_eq_left
  rcases sgn_cases l with h | h <;> rw [h]
  · rw [one_mul, ← EReal.coe_one, ← EReal.coe_add, EReal.coe_nonneg]; linarith
  · rw [neg_one_mul, ← EReal.coe_neg, ← EReal.coe_one, ← EReal.coe_add, EReal.coe_nonneg]; linarith

/-! ## A core's running sum over its 64 steps -/

/-- What a core's block holds after grid point n, when point n adds P n and the points at multiples of 64 start
    from zero. -/
def acc (P : ℕ → EReal) : ℕ → EReal
  | 0 => P 0
  | n + 1 => if (n + 1) % 64 = 0 then P (n + 1) else acc P n + P (n + 1)

theorem acc_start (P : ℕ → EReal) (n : ℕ) (h : n % 64 = 0) : acc P n = P n := by
  cases n with
  | zero => rfl
  | succ n => exact if_pos h

theorem acc_step (P : ℕ → EReal) (n : ℕ) (h : ¬(n + 1) % 64 = 0) : acc P (n + 1) = acc P n + P (n + 1) :=
  if_neg h

/-- After step i of half q the block holds the sum of that half's steps 0 … i. -/
theorem acc_eq (P : ℕ → EReal) (q : ℕ) : ∀ i : ℕ, i < 64 → acc P (64 * q + i) = ∑ j ∈ range (i + 1), P (64 * q + j)
  | 0, _ => by rw [acc_start P _ (by omega), sum_range_one]
  | i + 1, hi => by
    rw [show 64 * q + (i + 1) = (64 * q + i) + 1 from rfl, acc_step P _ (by omega), acc_eq P q i (by omega),
      sum_range_succ (fun j => P (64 * q + j)) (i + 1)]
    rfl

/-! ## The rows, half by half, step by step, pair by pair -/

/-- Step n's share of a sum over the rows: its 4096 even rows and its 4096 odd rows. -/
def stepSum (f : ℕ → EReal) (n : ℕ) : EReal :=
  ∑ p : Fin 4096, f (2 * (4096 * n + p.val)) + ∑ p : Fin 4096, f (2 * (4096 * n + p.val) + 1)

/-- The two halves' 64 steps each make up the sum over all 2^20 rows. -/
theorem halves_eq_rows (f : ℕ → EReal) :
    (∑ j ∈ range 64, stepSum f j) + (∑ j ∈ range 64, stepSum f (64 + j)) = ∑ r ∈ range 1048576, f r := by
  have h1 : ∑ r ∈ range 1048576, f r = ∑ R ∈ range 524288, (f (2 * R) + f (2 * R + 1)) := by
    rw [show (1048576 : ℕ) = 524288 * 2 by norm_num, ← Cert.LibBlockedSum.sum_range_blocks 524288 2 f]
    exact sum_congr rfl fun R _ => by
      rw [Fin.sum_univ_two]
      simp only [Fin.isValue, Fin.val_zero, Fin.val_one, Nat.add_zero]
  have h2 : ∑ R ∈ range 524288, (f (2 * R) + f (2 * R + 1)) = ∑ n ∈ range 128, stepSum f n := by
    rw [show (524288 : ℕ) = 128 * 4096 by norm_num,
      ← Cert.LibBlockedSum.sum_range_blocks 128 4096 (fun R => f (2 * R) + f (2 * R + 1))]
    exact sum_congr rfl fun n _ => by rw [sum_add_distrib, stepSum]
  have h3 : ∑ n ∈ range 128, stepSum f n = (∑ j ∈ range 64, stepSum f j) + (∑ j ∈ range 64, stepSum f (64 + j)) := by
    rw [show (128 : ℕ) = 2 * 64 by norm_num, ← Cert.LibBlockedSum.sum_range_blocks 2 64 (stepSum f), sum_range_succ,
      sum_range_one, Finset.sum_range (fun j => stepSum f j), Finset.sum_range (fun j => stepSum f (64 + j))]
    simp only [Nat.mul_zero, Nat.zero_add, Nat.mul_one]
  rw [h1, h2, h3]

end Cert.LossLaw

end
-- ==== Proof.LibColumnSlice.lean ====
/-
  A block of whole columns cut out of a matrix, read at an index written by coordinates: the slice of `[a, n]` that
  keeps every row and the `b` columns from `o` on reads, at `(p, j)`, the matrix's entry `(p, o + j)`.
  General lemma: any element type, any extents.
-/
import Idealize.ShloMosaic.Lib.Pipeline.Value
import Idealize.ShloMosaic.Lib.ValueIdx

namespace Cert.LibColumnSlice

open Idealize.ShloMosaic Idealize.ShloMosaic.ValueIdx

/-- A slice with offset `(0, o)` reads, at `(p, j)`, the operand's entry `(p, c)` for the column `c = o + j`. -/
theorem slice_cols_apply {α : Type} {a n b : ℕ} (o : ℕ) (x : (⟨2, ![a, n]⟩ : Shape).Idx → α)
    (h : (⟨2, ![a, n]⟩ : Shape).Slices ![0, o] ⟨2, ![a, b]⟩) (p : Fin a) (j : Fin b) (c : Fin n) (hc : c.val = o + j.val) :
    extractStridedSlice ⟨2, ![a, b]⟩ ![0, o] x h (ix2 p j) = x (ix2 p c) := by
  refine extractStridedSlice_apply _ x h (ix2 p j) (ix2 p c) fun ax => ?_
  match ax with
  | ⟨0, _⟩ => exact (Nat.zero_add _).symm
  | ⟨1, _⟩ => exact hc

end Cert.LibColumnSlice
-- ==== Proof.LibMatrixLayout.lean ====
/-
  Small matrices' layout operations read at an index written by coordinates.  General lemmas: any element type, any
  extents.

  * a vector [a] reshaped to a column [a, 1];
  * a vector [b] broadcast in dimension 1 to a row [1, b], and [a] in dimension 0 to a column [a, 1];
  * a row [1, b] broadcast in dimensions (0, 1) to [a, b], and a column [a, 1] to [a, b];
  * a scalar broadcast to any shape;
  * two matrices [a, b] and [a, c] joined along their columns into [a, b + c], read in the left and the right part.
-/
import Idealize.ShloMosaic.Lib.Pipeline.Value
import Idealize.ShloMosaic.Lib.ValueIdx

namespace Cert.LibMatrixLayout

open Idealize.ShloMosaic Idealize.ShloMosaic.ValueIdx

variable {α : Type}

/-- A vector reshaped to a column reads, at (i, 0), the vector's entry i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector broadcast in dimension 1 to a row reads, at (0, j), the vector's entry j. -/
theorem bcast_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A vector broadcast in dimension 0 to a column reads, at (i, 0), the vector's entry i. -/
theorem bcast_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A row broadcast in dimensions (0, 1) down the rows of [a, b] reads, at (i, j), the row's entry j. -/
theorem bcast_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A column broadcast in dimensions (0, 1) along the rows of [a, b] reads, at (i, j), the column's entry i. -/
theorem bcast_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A scalar broadcast to any shape reads the scalar everywhere. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- Two matrices joined along their columns read, in the first b columns, the left one. -/
theorem concat_cols_left {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin b)
    (k : Fin n) (hk : k.val = q.val) :
    concatenate ⟨2, ![a, n]⟩ (1 : Fin 2) [⟨⟨2, ![a, b]⟩, x₁⟩, ⟨⟨2, ![a, c]⟩, x₂⟩] h (ix2 i k) = x₁ (ix2 i q) := by
  refine concatenate_pair_apply_left (1 : Fin 2) x₁ x₂ h (ix2 i k) rfl (ix2 i q) fun ax => ?_
  match ax with
  | ⟨0, _⟩ => rfl
  | ⟨1, _⟩ => exact hk.symm

/-- Two matrices joined along their columns read, past the first b columns, the right one. -/
theorem concat_cols_right {a b c n : ℕ} (x₁ : (⟨2, ![a, b]⟩ : Shape).Idx → α) (x₂ : (⟨2, ![a, c]⟩ : Shape).Idx → α)
    (h : Shape.Concatenates [(⟨2, ![a, b]⟩ : Shape), ⟨2, ![a, c]⟩] ⟨2, ![a, n]⟩ (1 : Fin 2)) (i : Fin a) (q : Fin c)
    (k : Fin n) (hk : k.val = b + q.val) :
    concatenate ⟨2, ![a, n]⟩ (1 : Fin 2) [⟨⟨2, ![a, b]⟩, x₁⟩, ⟨⟨2, ![a, c]⟩, x₂⟩] h (ix2 i k) = x₂ (ix2 i q) := by
  refine concatenate_pair_apply_right (1 : Fin 2) x₁ x₂ h (ix2 i k) rfl rfl (ix2 i q) (fun ax hax => ?_) ?_
  · match ax with
    | ⟨0, _⟩ => rfl
    | ⟨1, _⟩ => exact absurd rfl hax
  · show q.val + b = k.val
    omega

end Cert.LibMatrixLayout
-- ==== Proof.BodyValue.lean ====
/-
  The body's arithmetic read at an index, over the extended reals.

  A step's blocks are X0, X1 : [4096, 128] (two rows of the inputs side by side: lanes 0–63 an even row, lanes 64–127
  the odd row after it) and the labels L : [4096, 2].  Row p's half h contributes
      s (L p h) · tanh (√ Σ_k (X1 p (64h + k) − X0 p (64h + k))²).
  The body's two 1×1 partial sums are the sums over p of the half-0 and of the half-1 terms; the stored block is the
  loaded block plus their sum at every entry; the reset block is zero everywhere.
-/
import proofs.«111070_j34213709479938_2_alg».proof.Proof.Gen.KernelIdeal.Skeleton
import proofs.«111070_j34213709479938_2_alg».proof.Proof.LossLaw
import proofs.«111070_j34213709479938_2_alg».proof.Proof.LibColumnSlice
import proofs.«111070_j34213709479938_2_alg».proof.Proof.LibMatrixLayout
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.BodyValue

open Cert.KernelIdeal Cert.KernelIdeal.Gen Cert.LossLaw

/-- The lane of column k in half h of a 128-wide row. -/
def col (h : Fin 2) (k : Fin 64) : Fin 128 := ⟨64 * h.val + k.val, by have := h.isLt; have := k.isLt; omega⟩

/-- The term of row p's half h within a step's blocks. -/
def blkTerm (X0 X1 : FVec Ideal S4096x128 .f32) (L : IVec S4096x2 32) (p : Fin 4096) (h : Fin 2) : EReal :=
  sgn (L (ix2 p h)) * Ideal.tanh (Ideal.sqrt (∑ k : Fin 64,
    (X1 (ix2 p (col h k)) - X0 (ix2 p (col h k))) * (X1 (ix2 p (col h k)) - X0 (ix2 p (col h k)))))

/-- The squared difference, entry by entry. -/
theorem sq_apply (v3 v5 : Vec Ideal S4096x128 .f32) (j : S4096x128.Idx) :
    k0_pay3 (F := Ideal) v3 v5 j = (v3 j - v5 j) * (v3 j - v5 j) := by
  unfold k0_pay3
  rw [shapeCast_self, shapeCast_self]
  rfl

/-- The labels are loaded as they are. -/
theorem lab_eq (v19 : Vec Ideal S4096x2 .i32) : k0_pay4 (F := Ideal) v19 = v19 := by
  unfold k0_pay4
  exact shapeCast_self _ _

/-- Summing the 64 lanes from lane o on, kept as a column: row p's entry is the sum of that row's 64 entries. -/
theorem lane_sum_apply (sq : FVec Ideal S4096x128 .f32) (o : ℕ) (hs : S4096x128.Slices ![0, o] S4096x64)
    (hr : S4096x64.Reduces [1] S4096) (hφ : FKind.Formats .f32) (hacc : (0x00000000#32 : BitVec 32) = FKind.add.neutral .f32 hφ)
    (hc : S4096.ShapeCasts S4096x1) (p : Fin 4096) (u : Fin 1) (cs : Fin 64 → Fin 128) (hcs : ∀ k, (cs k).val = o + k.val) :
    shapeCast S4096x1 (multiReduction (F := Ideal) .add [1] S4096 (extractStridedSlice S4096x64 ![0, o] sq hs) 0x00000000#32 hr hφ hacc) hc (ix2 p u)
      = ∑ k : Fin 64, sq (ix2 p (cs k)) :=
  (Cert.LibMatrixLayout.shapeCast_a_a1_apply _ hc p u).trans
    ((Ideal.multiReduction_add_single _ _ hr hφ hacc (ix1 p)).trans
      (Finset.sum_congr rfl fun k _ =>
        (congrArg (extractStridedSlice S4096x64 ![0, o] sq hs)
          (funext fun a => Fin.ext (by match a with | ⟨0, _⟩ => rfl | ⟨1, _⟩ => rfl) : hr.lift (ix1 p) k = ix2 p k)).trans
        (Cert.LibColumnSlice.slice_cols_apply o sq hs p k (cs k) (hcs k))))

/-- One half's 1×1 partial sum: over the rows p, the sign of the half's label times tanh of the root of the half's
    lane sum. -/
theorem partial_apply (sq : FVec Ideal S4096x128 .f32) (lab : IVec S4096x2 32) (o ol : ℕ) (h : Fin 2)
    (ho : o = 64 * h.val) (hol : ol = h.val)
    (hs : S4096x128.Slices ![0, o] S4096x64) (hsl : S4096x2.Slices ![0, ol] S4096x1)
    (hr : S4096x64.Reduces [1] S4096) (hφ : FKind.Formats .f32) (hacc : (0x00000000#32 : BitVec 32) = FKind.add.neutral .f32 hφ)
    (hc : S4096.ShapeCasts S4096x1)
    (hr0 : S4096x1.Reduces [0] S1) (hφ0 : FKind.Formats .f32) (hacc0 : (0x00000000#32 : BitVec 32) = FKind.add.neutral .f32 hφ0)
    (hc0 : S1.ShapeCasts S1x1) (u w : Fin 1) :
    shapeCast S1x1 (multiReduction (F := Ideal) .add [0] S1
        (mulf (select (cmpi .eq (extractStridedSlice S4096x1 ![0, ol] lab hsl) (broadcast S4096x1 2#32))
                (broadcast S4096x1 (Scalar.ofBits (F := Ideal) .f32 0xBF800000#32)) (broadcast S4096x1 (Scalar.ofBits (F := Ideal) .f32 0x3F800000#32)))
              (tanh (sqrt (shapeCast S4096x1 (multiReduction (F := Ideal) .add [1] S4096 (extractStridedSlice S4096x64 ![0, o] sq hs) 0x00000000#32 hr hφ hacc) hc))))
        0x00000000#32 hr0 hφ0 hacc0) hc0 (ix2 u w)
      = ∑ p : Fin 4096, sgn (lab (ix2 p h)) * Ideal.tanh (Ideal.sqrt (∑ k : Fin 64, sq (ix2 p (col h k)))) := by
  refine (Cert.LibMatrixLayout.shapeCast_a_a1_apply _ hc0 u w).trans
    ((Ideal.multiReduction_add_single _ _ hr0 hφ0 hacc0 (ix1 u)).trans (Finset.sum_congr rfl fun p _ => ?_))
  have hidx : hr0.lift (ix1 u) p = ix2 p u :=
    funext fun a => Fin.ext (by match a with | ⟨0, _⟩ => rfl | ⟨1, _⟩ => rfl)
  rw [hidx]
  have hu : u.val = 0 := by omega
  exact congrArg₂ (· * ·)
    (congrArg (fun l => Scalar.select (IntOp.cmpi .eq l 2#32) (Ideal.ofBits .f32 0xBF800000#32) (Ideal.ofBits .f32 0x3F800000#32))
      (Cert.LibColumnSlice.slice_cols_apply ol lab hsl p u h (by omega)))
    (congrArg (fun x => Ideal.tanh (Ideal.sqrt x))
      (lane_sum_apply sq o hs hr hφ hacc hc p u (col h) (fun k => by subst ho; rfl)))

/-- The even rows' partial sum. -/
theorem pay5_apply (v3 v5 : Vec Ideal S4096x128 .f32) (v19 : Vec Ideal S4096x2 .i32) (u w : Fin 1) :
    k0_pay5 (F := Ideal) v3 v5 v19 (ix2 u w) = ∑ p : Fin 4096, blkTerm v5 v3 v19 p 0 := by
  unfold k0_pay5
  dsimp only
  refine (partial_apply (k0_pay3 v3 v5) (k0_pay4 v19) 0 0 0 rfl rfl _ _ _ _ _ _ _ _ _ _ u w).trans
    (Finset.sum_congr rfl fun p _ => ?_)
  unfold blkTerm
  rw [lab_eq]
  exact congrArg (fun x => sgn (v19 (ix2 p 0)) * Ideal.tanh (Ideal.sqrt x)) (Finset.sum_congr rfl fun k _ => sq_apply v3 v5 _)

/-- The odd rows' partial sum. -/
theorem pay6_apply (v3 v5 : Vec Ideal S4096x128 .f32) (v19 : Vec Ideal S4096x2 .i32) (u w : Fin 1) :
    k0_pay6 (F := Ideal) v3 v5 v19 (ix2 u w) = ∑ p : Fin 4096, blkTerm v5 v3 v19 p 1 := by
  unfold k0_pay6
  dsimp only
  refine (partial_apply (k0_pay3 v3 v5) (k0_pay4 v19) 64 1 1 rfl rfl _ _ _ _ _ _ _ _ _ _ u w).trans
    (Finset.sum_congr rfl fun p _ => ?_)
  unfold blkTerm
  rw [lab_eq]
  exact congrArg (fun x => sgn (v19 (ix2 p 1)) * Ideal.tanh (Ideal.sqrt x)) (Finset.sum_congr rfl fun k _ => sq_apply v3 v5 _)

/-- The reset block is zero at every entry. -/
theorem pay2_apply (y : S8x128.Idx) : k0_pay2 (F := Ideal) y = 0 := by
  unfold k0_pay2
  exact Ideal.ofBits_zero_f32

/-- The stored block: the loaded block plus the sum of the two partial sums, at every entry. -/
theorem pay1_apply (v35 v38 : FVec Ideal S1x1 .f32) (v40 : Vec Ideal S8x128 .f32) (a : Fin 8) (b : Fin 128) :
    k0_pay1 (F := Ideal) v35 v38 v40 (ix2 a b) = v40 (ix2 a b) + (v35 (ix2 0 0) + v38 (ix2 0 0)) := by
  unfold k0_pay1
  rw [shapeCast_self, shapeCast_self]
  refine congrArg (v40 (ix2 a b) + ·) ?_
  exact broadcastTo_apply (addf v35 v38) _ (ix2 a b) (ix2 0 0) (fun ax => by match ax with | ⟨0, _⟩ => rfl | ⟨1, _⟩ => rfl)

/-- A step's contribution: its even rows' terms plus its odd rows' terms. -/
def blkSum (X0 X1 : FVec Ideal S4096x128 .f32) (L : IVec S4096x2 32) : EReal :=
  (∑ p : Fin 4096, blkTerm X0 X1 L p 0) + (∑ p : Fin 4096, blkTerm X0 X1 L p 1)

/-- A core's first step leaves the step's contribution at every entry of the block. -/
theorem first_apply (X0 X1 : Vec Ideal S4096x128 .f32) (L : Vec Ideal S4096x2 .i32) (a : Fin 8) (b : Fin 128) :
    k0_pay1 (F := Ideal) (k0_pay5 X1 X0 L) (k0_pay6 X1 X0 L) (k0_pay2 (F := Ideal)) (ix2 a b) = blkSum X0 X1 L := by
  rw [pay1_apply, pay2_apply, zero_add, pay5_apply, pay6_apply]
  rfl

/-- A later step adds the step's contribution to every entry of the block. -/
theorem later_apply (X0 X1 : Vec Ideal S4096x128 .f32) (L : Vec Ideal S4096x2 .i32) (xo : Vec Ideal S8x128 .f32)
    (a : Fin 8) (b : Fin 128) :
    k0_pay1 (F := Ideal) (k0_pay5 X1 X0 L) (k0_pay6 X1 X0 L) xo (ix2 a b) = xo (ix2 a b) + blkSum X0 X1 L := by
  rw [pay1_apply, pay5_apply, pay6_apply]
  rfl

end Cert.KernelIdeal.BodyValue

end
-- ==== Proof.LossSpec.lean ====
/-
  The result both programs compute, as one function of the three argument arrays.

  For the inputs x0, x1 : [1048576, 64] and the labels x2 : [1048576], row r contributes
      s (x2 r) · tanh (√ Σ_k (x1 r k − x0 r k)²),
  and the result is the number of rows plus the sum of the rows' terms.
-/
import proofs.«111070_j34213709479938_2_alg».proof.Proof.LossLaw
import Idealize.ShloMosaic.Lib.ValueIdx

noncomputable section

open Idealize.ShloMosaic Idealize.ShloMosaic.ValueIdx

namespace Cert.LossSpec

open Cert.LossLaw Cert.LibTotals

/-- The inputs' shape and the labels'. -/
abbrev Rows : Shape := ⟨2, ![1048576, 64]⟩
abbrev Labs : Shape := ⟨1, ![1048576]⟩

/-- Row r's term. -/
def rowVal (x0 x1 : Rows.Idx → EReal) (x2 : Labs.Idx → BitVec 32) (r : Fin 1048576) : EReal :=
  sgn (x2 (ix1 r)) * Ideal.tanh (Ideal.sqrt (∑ k : Fin 64,
    (x1 (ix2 r k) - x0 (ix2 r k)) * (x1 (ix2 r k) - x0 (ix2 r k))))

/-- The result: the number of rows plus the sum of the rows' terms. -/
def total (x0 x1 : Rows.Idx → EReal) (x2 : Labs.Idx → BitVec 32) : EReal :=
  ((1048576 : ℕ) : EReal) + ∑ r : Fin 1048576, rowVal x0 x1 x2 r

/-- A row's term by the row's number, zero past the last row: the form in which sums over the rows are cut into
    blocks. -/
def rowValN (x0 x1 : Rows.Idx → EReal) (x2 : Labs.Idx → BitVec 32) (n : ℕ) : EReal :=
  if h : n < 1048576 then rowVal x0 x1 x2 ⟨n, h⟩ else 0

/-- The sum of the rows' terms, over the first 2^20 naturals. -/
theorem sum_rowVal_eq (x0 x1 : Rows.Idx → EReal) (x2 : Labs.Idx → BitVec 32) :
    ∑ r : Fin 1048576, rowVal x0 x1 x2 r = ∑ r ∈ Finset.range 1048576, rowValN x0 x1 x2 r :=
  sum_fin_eq_range _

end Cert.LossSpec

end
-- ==== Proof.Blocks.lean ====
/-
  A step's blocks are rows of the argument arrays.

  Before the call the two inputs [1048576, 64] are re-laid as [524288, 128] (row R holds rows 2R and 2R + 1 side by
  side) and the labels [1048576] as [524288, 2].  Step t's blocks are the 4096 re-laid rows from 4096·t on, so row p's
  half h of the step's blocks is row 2·(4096·t + p) + h of the arguments, lane for lane and label for label; its term
  is that row's term.
-/
import proofs.«111070_j34213709479938_2_alg».proof.Proof.Gen.KernelIdeal.Frame
import proofs.«111070_j34213709479938_2_alg».proof.Proof.BodyValue
import proofs.«111070_j34213709479938_2_alg».proof.Proof.LossSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen Cert.LossLaw Cert.LossSpec Cert.KernelIdeal.BodyValue

variable (m : (ℓ : Loc nD τ sig) → Buf (Elt Ideal) ℓ)

/-- The three arguments on core c. -/
abbrev arg0 (c : Dev nD) : Rows.Idx → EReal := m ((c : Thread nD τ).loc main_arg0)
abbrev arg1 (c : Dev nD) : Rows.Idx → EReal := m ((c : Thread nD τ).loc main_arg1)
abbrev arg2 (c : Dev nD) : Labs.Idx → BitVec 32 := m ((c : Thread nD τ).loc main_arg2)

/-- The call's operands are the re-laid arguments. -/
theorem V_v0 (c : Dev nD) : V m c main_v0 = shapeCast S524288x128 (arg0 m c) shapeCasts_S1048576x64_S524288x128 := by
  show StableHlo.after hostOps0 (fun b => m (c, b)) (Proc.devRef .tc main_v0) = _
  after_results
  rfl
theorem V_v1 (c : Dev nD) : V m c main_v1 = shapeCast S524288x128 (arg1 m c) shapeCasts_S1048576x64_S524288x128 := by
  show StableHlo.after hostOps0 (fun b => m (c, b)) (Proc.devRef .tc main_v1) = _
  after_results
  rfl
theorem V_v2 (c : Dev nD) : V m c main_v2 = shapeCast S524288x2 (arg2 m c) shapeCasts_S1048576_S524288x2 := by
  show StableHlo.after hostOps0 (fun b => m (c, b)) (Proc.devRef .tc main_v2) = _
  after_results
  rfl

/-- Re-laid row R, lane 64h + k, is row 2R + h, lane k. -/
theorem relaid_apply (x : Rows.Idx → EReal) (hc : Rows.ShapeCasts S524288x128) (R : Fin 524288) (h : Fin 2) (k : Fin 64)
    (r : Fin 1048576) (hr : r.val = 2 * R.val + h.val) :
    shapeCast S524288x128 x hc (ix2 R (col h k)) = x (ix2 r k) :=
  shapeCast_apply x hc _ _ (by
    rw [Shape.rowMajor_val_two, Shape.rowMajor_val_two]
    show r.val * 64 + k.val = R.val * 128 + (64 * h.val + k.val)
    omega)

/-- Re-laid label (R, h) is label 2R + h. -/
theorem relaid_lab_apply (x : Labs.Idx → BitVec 32) (hc : Labs.ShapeCasts S524288x2) (R : Fin 524288) (h : Fin 2)
    (r : Fin 1048576) (hr : r.val = 2 * R.val + h.val) :
    shapeCast S524288x2 x hc (ix2 R h) = x (ix1 r) :=
  shapeCast_apply x hc _ _ (by
    rw [Shape.rowMajor_val_one, Shape.rowMajor_val_two]
    show r.val = R.val * 2 + h.val
    omega)

/-- Every window's block at step t starts at re-laid row 4096·t, lane 0. -/
theorem idx_in : ∀ t : Fin cfg0.N, (win0_0.index t 0 = t.val ∧ win0_0.index t 1 = 0)
    ∧ (win0_1.index t 0 = t.val ∧ win0_1.index t 1 = 0) ∧ (win0_2.index t 0 = t.val ∧ win0_2.index t 1 = 0) :=
  (by decide +kernel : ∀ t : Fin grid0.N, (win0_0.index t 0 = t.val ∧ win0_0.index t 1 = 0)
    ∧ (win0_1.index t 0 = t.val ∧ win0_1.index t 1 = 0) ∧ (win0_2.index t 0 = t.val ∧ win0_2.index t 1 = 0))

/-- The first input's block at step t, entry (p, l): re-laid row 4096·t + p, lane l. -/
theorem iblk0_apply (c : Dev nD) (t : Fin cfg0.N) (p : Fin 4096) (l : Fin 128) (R : Fin 524288) (hR : R.val = 4096 * t.val + p.val) :
    (iblk m c 0 t : Vec Ideal S4096x128 .f32) (ix2 p l) = V m c main_v0 (ix2 R l) := by
  unfold iblk
  rw [View.read_apply]
  show V m c main_v0 _ = V m c main_v0 _
  congr 1
  funext a
  apply Fin.ext
  match a with
  | ⟨0, _⟩ => show win0_0.index t 0 * 4096 + 1 * p.val = R.val; rw [(idx_in t).1.1]; omega
  | ⟨1, _⟩ => show win0_0.index t 1 * 128 + 1 * l.val = l.val; rw [(idx_in t).1.2]; omega

theorem iblk1_apply (c : Dev nD) (t : Fin cfg0.N) (p : Fin 4096) (l : Fin 128) (R : Fin 524288) (hR : R.val = 4096 * t.val + p.val) :
    (iblk m c 1 t : Vec Ideal S4096x128 .f32) (ix2 p l) = V m c main_v1 (ix2 R l) := by
  unfold iblk
  rw [View.read_apply]
  show V m c main_v1 _ = V m c main_v1 _
  congr 1
  funext a
  apply Fin.ext
  match a with
  | ⟨0, _⟩ => show win0_1.index t 0 * 4096 + 1 * p.val = R.val; rw [(idx_in t).2.1.1]; omega
  | ⟨1, _⟩ => show win0_1.index t 1 * 128 + 1 * l.val = l.val; rw [(idx_in t).2.1.2]; omega

theorem iblk2_apply (c : Dev nD) (t : Fin cfg0.N) (p : Fin 4096) (h : Fin 2) (R : Fin 524288) (hR : R.val = 4096 * t.val + p.val) :
    (iblk m c 2 t : Vec Ideal S4096x2 .i32) (ix2 p h) = V m c main_v2 (ix2 R h) := by
  unfold iblk
  rw [View.read_apply]
  show V m c main_v2 _ = V m c main_v2 _
  congr 1
  funext a
  apply Fin.ext
  match a with
  | ⟨0, _⟩ => show win0_2.index t 0 * 4096 + 1 * p.val = R.val; rw [(idx_in t).2.2.1]; omega
  | ⟨1, _⟩ => show win0_2.index t 1 * 2 + 1 * h.val = h.val; rw [(idx_in t).2.2.2]; omega

/-- Row p's half h of step t's blocks has the term of row 2·(4096·t + p) + h of the arguments. -/
theorem blkTerm_eq (c : Dev nD) (t : Fin cfg0.N) (p : Fin 4096) (h : Fin 2) :
    blkTerm (iblk m c 0 t) (iblk m c 1 t) (iblk m c 2 t) p h
      = rowValN (arg0 m c) (arg1 m c) (arg2 m c) (2 * (4096 * t.val + p.val) + h.val) := by
  have hN : t.val < 128 := lt_of_lt_of_eq t.isLt (show cfg0.N = 128 from N_0)
  have hp := p.isLt
  have hh := h.isLt
  have hr : 2 * (4096 * t.val + p.val) + h.val < 1048576 := by omega
  rw [rowValN, dif_pos hr]
  unfold blkTerm rowVal
  have e0 : ∀ k : Fin 64, (iblk m c 0 t : Vec Ideal S4096x128 .f32) (ix2 p (col h k)) = arg0 m c (ix2 ⟨2 * (4096 * t.val + p.val) + h.val, hr⟩ k) :=
    fun k => (iblk0_apply m c t p (col h k) ⟨4096 * t.val + p.val, by omega⟩ rfl).trans
      ((congrFun (V_v0 m c) _).trans (relaid_apply (arg0 m c) _ _ h k _ rfl))
  have e1 : ∀ k : Fin 64, (iblk m c 1 t : Vec Ideal S4096x128 .f32) (ix2 p (col h k)) = arg1 m c (ix2 ⟨2 * (4096 * t.val + p.val) + h.val, hr⟩ k) :=
    fun k => (iblk1_apply m c t p (col h k) ⟨4096 * t.val + p.val, by omega⟩ rfl).trans
      ((congrFun (V_v1 m c) _).trans (relaid_apply (arg1 m c) _ _ h k _ rfl))
  have e2 : (iblk m c 2 t : Vec Ideal S4096x2 .i32) (ix2 p h) = arg2 m c (ix1 ⟨2 * (4096 * t.val + p.val) + h.val, hr⟩) :=
    (iblk2_apply m c t p h ⟨4096 * t.val + p.val, by omega⟩ rfl).trans
      ((congrFun (V_v2 m c) _).trans (relaid_lab_apply (arg2 m c) _ _ h _ rfl))
  exact congrArg₂ (fun l s => sgn l * Ideal.tanh (Ideal.sqrt s)) e2
    (Finset.sum_congr rfl fun k _ => by rw [e0 k, e1 k])

/-- A step's contribution is its share of the sum over the rows. -/
theorem blkSum_eq (c : Dev nD) (t : Fin cfg0.N) :
    blkSum (iblk m c 0 t) (iblk m c 1 t) (iblk m c 2 t) = stepSum (rowValN (arg0 m c) (arg1 m c) (arg2 m c)) t.val := by
  unfold blkSum stepSum
  exact congrArg₂ (· + ·) (Finset.sum_congr rfl fun p _ => blkTerm_eq m c t p 0)
    (Finset.sum_congr rfl fun p _ => blkTerm_eq m c t p 1)

end Cert.KernelIdeal.Blocks

end
-- ==== Proof.Accumulate.lean ====
/-
  The output array after the call.

  The grid's 128 points run core 0's 64 steps and then core 1's.  After point n every entry of the current output
  block holds the sum of the contributions of the current core's steps so far: the first step of a core starts from
  the zero block, each later step adds its contribution to what the step before left (by induction on the point).  The
  block is written back after a core's last step (points 63 and 127), to rows 0–7 and 8–15 of the [16, 128] array.  So
  every entry of rows 8q … 8q + 7 ends holding the sum of core q's 64 contributions.
-/
import proofs.«111070_j34213709479938_2_alg».proof.Proof.Gen.KernelIdeal.Frame
import proofs.«111070_j34213709479938_2_alg».proof.Proof.BodyPieces
import proofs.«111070_j34213709479938_2_alg».proof.Proof.Blocks
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.LossLaw Cert.LossSpec Cert.KernelIdeal.BodyValue Cert.KernelIdeal.Blocks

variable (m : (ℓ : Loc nD τ sig) → Buf (Elt Ideal) ℓ)

/-- Point n's contribution: the terms of its 4096 even and 4096 odd rows. -/
def contrib (c : Dev nD) : ℕ → EReal := stepSum (rowValN (arg0 m c) (arg1 m c) (arg2 m c))

/-- At a core's first step the block ends at the step's contribution, everywhere. -/
theorem first_step (c : Dev nD) (t : Fin cfg0.N) (h0 : t.val % 64 = 0) (a : Fin 8) (b : Fin 128) :
    (outsAt0 m c t.val t.isLt : Vec Ideal S8x128 .f32) (ix2 a b) = contrib m c t.val :=
  (congrFun (outsAt0_A m c t h0) (ix2 a b)).trans
    ((congrFun (Pieces.out_first (F := Ideal) c (grid0.coords t) (ms0_0 t) (hs0_0 t) (ms0_1 t) (hs0_1 t) (ms0_2 t) (hs0_2 t)
        (ms0_3 t) (hs0_3 t) ((hcond0_0 t).mpr h0) (iblk m c 0 t) (iblk m c 1 t) (iblk m c 2 t)) (ix2 a b)).trans
      ((first_apply (iblk m c 0 t) (iblk m c 1 t) (iblk m c 2 t) a b).trans (blkSum_eq m c t)))

/-- At a later step it ends at what the point before left plus the step's contribution. -/
theorem later_step (c : Dev nD) (t : Fin cfg0.N) (h0 : ¬t.val % 64 = 0) (a : Fin 8) (b : Fin 128) :
    (outsAt0 m c t.val t.isLt : Vec Ideal S8x128 .f32) (ix2 a b)
      = (outsAt0 m c (t.val - 1) (Nat.lt_of_le_of_lt (Nat.sub_le _ _) t.isLt) : Vec Ideal S8x128 .f32) (ix2 a b) + contrib m c t.val :=
  (congrFun (outsAt0_B m c t h0) (ix2 a b)).trans
    ((congrFun (Pieces.out_later (F := Ideal) c (grid0.coords t) (ms0_0 t) (hs0_0 t) (ms0_1 t) (hs0_1 t) (ms0_2 t) (hs0_2 t)
        (ms0_3 t) (hs0_3 t) (fun h => h0 ((hcond0_0 t).mp h)) (iblk m c 0 t) (iblk m c 1 t) (iblk m c 2 t)
        (outsAt0 m c (t.val - 1) (Nat.lt_of_le_of_lt (Nat.sub_le _ _) t.isLt))) (ix2 a b)).trans
      ((later_apply (iblk m c 0 t) (iblk m c 1 t) (iblk m c 2 t)
          (outsAt0 m c (t.val - 1) (Nat.lt_of_le_of_lt (Nat.sub_le _ _) t.isLt)) a b).trans
        (congrArg ((outsAt0 m c (t.val - 1) (Nat.lt_of_le_of_lt (Nat.sub_le _ _) t.isLt) : Vec Ideal S8x128 .f32) (ix2 a b) + ·)
          (blkSum_eq m c t))))

/-- After point n the block holds the current core's running sum, at every entry. -/
theorem outsAt_eq (c : Dev nD) : ∀ (n : ℕ) (h : n < cfg0.N) (a : Fin 8) (b : Fin 128),
    (outsAt0 m c n h : Vec Ideal S8x128 .f32) (ix2 a b) = acc (contrib m c) n
  | 0, h, a, b => first_step m c ⟨0, h⟩ rfl a b
  | n + 1, h, a, b => by
    by_cases h0 : (n + 1) % 64 = 0
    · exact (first_step m c ⟨n + 1, h⟩ h0 a b).trans (acc_start _ _ h0).symm
    · refine (later_step m c ⟨n + 1, h⟩ h0 a b).trans ?_
      rw [acc_step _ _ h0]
      exact congrArg (· + contrib m c (n + 1)) (outsAt_eq c n (Nat.lt_of_succ_lt h) a b)

/-- The output array after the call: rows 8q … 8q + 7 hold the sum of core q's 64 contributions. -/
def G (c : Dev nD) : S16x128.Idx → EReal :=
  fun i => ∑ j ∈ Finset.range 64, contrib m c (64 * ((i 0).val / 8) + j)

/-- The output's block at point t is block (t / 64, 0). -/
theorem idx_out : ∀ t : Fin cfg0.N, win0_3.index t 0 = t.val / 64 ∧ win0_3.index t 1 = 0 :=
  (by decide +kernel : ∀ t : Fin grid0.N, win0_3.index t 0 = t.val / 64 ∧ win0_3.index t 1 = 0)

/-- What a core's last step writes back is its block of the array above. -/
theorem flushed_eq (c : Dev nD) (t : Fin cfg0.N) (hf : (cfg0.win 3).flush t = true) :
    (dats m 0 c).flushed 3 t = ((cfg0.win 3).blk t).view.read (Elt Ideal) (G m c) := by
  have hN : t.val < 128 := lt_of_lt_of_eq t.isLt (show cfg0.N = 128 from N_0)
  have h63 : t.val % 64 = 63 := (flush0_3 t).mp hf
  show (cfg0.win 3).cut (grid0.coords t) ((dats m 0 c).after 3 t) = _
  rw [after0_3]
  funext j
  show (outsAt0 m c t.val t.isLt : Vec Ideal S8x128 .f32) j = G m c (((cfg0.win 3).blk t).view.emb j)
  refine (congrArg (outsAt0 m c t.val t.isLt : Vec Ideal S8x128 .f32) (eq_ix2 j)).trans
    ((outsAt_eq m c t.val t.isLt (j 0) (j 1)).trans ?_)
  have hj : (j 0).val < 8 := (j 0).isLt
  show acc (contrib m c) t.val = ∑ i ∈ Finset.range 64, contrib m c (64 * ((win0_3.index t 0 * 8 + 1 * (j 0).val) / 8) + i)
  rw [(idx_out t).1, show (t.val / 64 * 8 + 1 * (j 0).val) / 8 = t.val / 64 by omega]
  have ht : t.val = 64 * (t.val / 64) + 63 := by omega
  conv_lhs => rw [ht]
  exact acc_eq (contrib m c) (t.val / 64) 63 (by norm_num)

/-- An index of the array is in point t's block iff each coordinate is in the block's range on its axis. -/
theorem mem_blk (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v3).slice (win0_3.rect t)).set ↔ _
  rw [View.set_slice_whole, Rect.mem_set_unit]
  exact Iff.rfl

/-- So the array ends holding it: the two written-back blocks cover the sixteen rows. -/
theorem final (c : Dev nD) : (dats m 0 c).arrAt 3 cfg0.N = G m c :=
  (dats m 0 c).arrAt_eq_of_cover 3 (G m c) (flushed_eq m c) fun i => by
    have hi0 : (i 0).val < 16 := (i 0).isLt
    have hi1 : (i 1).val < 128 := (i 1).isLt
    have hlt : 64 * ((i 0).val / 8) + 63 < cfg0.N := by rw [show cfg0.N = 128 from N_0]; omega
    refine ⟨⟨64 * ((i 0).val / 8) + 63, hlt⟩, (flush0_3 _).mpr (by show (64 * ((i 0).val / 8) + 63) % 64 = 63; omega), ?_⟩
    rw [mem_blk]
    intro a
    obtain ⟨e0, e1⟩ := idx_out ⟨64 * ((i 0).val / 8) + 63, hlt⟩
    match a with
    | ⟨0, _⟩ =>
      show win0_3.index ⟨64 * ((i 0).val / 8) + 63, hlt⟩ 0 * 8 ≤ (i 0).val ∧ (i 0).val < win0_3.index ⟨64 * ((i 0).val / 8) + 63, hlt⟩ 0 * 8 + 8
      rw [e0]; show (64 * ((i 0).val / 8) + 63) / 64 * 8 ≤ (i 0).val ∧ (i 0).val < (64 * ((i 0).val / 8) + 63) / 64 * 8 + 8; omega
    | ⟨1, _⟩ =>
      show win0_3.index ⟨64 * ((i 0).val / 8) + 63, hlt⟩ 1 * 128 ≤ (i 1).val ∧ (i 1).val < win0_3.index ⟨64 * ((i 0).val / 8) + 63, hlt⟩ 1 * 128 + 128
      rw [e1]; omega

end Cert.KernelIdeal.Accumulate

end
-- ==== Proof.KernelValue.lean ====
/-
  The kernel's result.

  After the call the program takes entry (0, 0) and entry (8, 0) of the [16, 128] array — the sums of core 0's and of
  core 1's 64 contributions — adds them, and adds the number of rows.  The two sums together are the sum over all 2^20
  rows of the rows' terms, so the result is the specified total.
-/
import proofs.«111070_j34213709479938_2_alg».proof.Proof.Accumulate
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen Cert.LossLaw Cert.LossSpec Cert.KernelIdeal.BodyValue Cert.KernelIdeal.Blocks
  Cert.KernelIdeal.Accumulate Cert.LibTotals

variable (m : (ℓ : Loc nD τ sig) → Buf (Elt Ideal) ℓ) (ρ : Dev nD → PrngReg)

/-- The 1×1 slice at (o, 0) of the output array reads entry (o, 0). -/
theorem slice_at (A : S16x128.Idx → EReal) (o : ℕ) (h : S16x128.Slices ![o, 0] S1x1) (r : Fin 16) (hr : r.val = o) :
    extractStridedSlice S1x1 ![o, 0] A h (ix2 0 0) = A (ix2 r 0) :=
  extractStridedSlice_apply ![o, 0] A h (ix2 0 0) (ix2 r 0) (fun a => by
    match a with
    | ⟨0, _⟩ => show r.val = o + 0; omega
    | ⟨1, _⟩ => rfl)

/-- Row r of the output array holds the sum of core (r / 8)'s 64 contributions. -/
theorem G_row (c : Dev nD) (a : Fin 16) (b : Fin 128) (q : ℕ) (hq : a.val / 8 = q) :
    G m c (ix2 a b) = ∑ j ∈ Finset.range 64, contrib m c (64 * q + j) := by
  subst hq; rfl

/-- The program's result after the lines that follow the call: the specified total. -/
theorem tail_eq (c : Dev nD) (i : S_.Idx) :
    Pipeline.afterTail₀ cfgs (dats m) 0 (V0 m) [hostOps1] c main_v9 i = total (arg0 m c) (arg1 m c) (arg2 m c) := by
  unfold Pipeline.afterTail₀
  show StableHlo.after hostOps1 _ (Proc.devRef .tc main_v9) i = _
  after_results
  have hA : Pipeline.withArrays (cfgs 0).spec c (V0 m c) (fun w => (dats m 0 c).arrAt w (cfgs 0).N) (Proc.tc.devRef main_v3) = G m c :=
    (Pipeline.withArrays_arr spec0 launch0.win.arr_inj c _ _ 3).trans (final m c)
  rw [hA]
  show (shapeCast S_ (extractStridedSlice S1x1 ![0, 0] (G m c) slices_S16x128_S1x1_0_0) shapeCasts_S1x1_S_ i
      + shapeCast S_ (extractStridedSlice S1x1 ![8, 0] (G m c) slices_S16x128_S1x1_8_0) shapeCasts_S1x1_S_ i)
      + Ideal.ofBits .f32 0x49800000#32 = _
  rw [scalar_of_11, scalar_of_11, slice_at (G m c) 0 _ 0 rfl, slice_at (G m c) 8 _ 8 rfl, ofBits_rows,
    G_row m c 0 0 0 (by decide), G_row m c 8 0 1 (by decide)]
  simp only [Nat.mul_zero, Nat.zero_add, Nat.mul_one]
  unfold total
  rw [sum_rowVal_eq, ← halves_eq_rows]
  exact add_comm _ _

/-- The kernel's run: every weakly fair execution ends with the result at the specified total and the arguments as
    they were. -/
theorem run : θ_run defs (onTc (τ := τ) (main (F := Ideal))) ⟨m, fun _ => 0, ρ⟩ fun r => ∀ c : Dev nD,
      r.2.mem ((c : Thread nD τ).loc main_v9) = (fun _ => total (arg0 m c) (arg1 m c) (arg2 m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v9 (Pipeline.mem_restRefs_of main_v9 (by decide) (by decide))).trans (funext fun i => tail_eq m c i),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.RefValue.lean ====
/-
  The reference computes the specified result.

  Its last stage is 0 plus the sum over the rows of max (1 + term) 0; the maximum is the identity on every row and the
  ones add up to the number of rows.
-/
import proofs.«111070_j34213709479938_2_alg».proof.Proof.Gen.ReferenceIdeal.Read
import proofs.«111070_j34213709479938_2_alg».proof.Proof.LossSpec

noncomputable section

open Idealize.ShloMosaic Idealize.ShloMosaic.ValueIdx

namespace Cert.ReferenceIdeal.RefValue

open Cert.ReferenceIdeal Cert.ReferenceIdeal.Read Cert.LossLaw Cert.LossSpec Cert.LibTotals

/-- Row r's entry before the final sum: 1 plus the row's term. -/
theorem relu_row (x0 x1 : (⟨S1048576x64, .f32⟩ : BufTy).Contents (Elt Ideal)) (x2 : (⟨S1048576, .i32⟩ : BufTy).Contents (Elt Ideal))
    (r : Fin 1048576) : val_main_v12 (F := Ideal) x0 x1 x2 (ix1 r) = 1 + rowVal x0 x1 x2 r := by
  rw [val_main_v12_apply, val_main_v11_apply, val_main_v10_apply, val_main_cst_2_apply, val_main_v9_apply, val_main_v8_apply,
    val_main_v7_apply, val_main_v6_apply, val_main_v5_apply, val_main_c_apply, val_main_call0_v0_apply, val_main_cst_0_apply,
    val_main_call0_v1_apply, val_main_cst_1_apply, val_main_v4_apply, val_main_v3_apply, val_main_v2_apply, val_main_cst_apply,
    val_main_call1_v0_apply, val_main_call1_cst_apply]
  show max (Ideal.ofBits .f32 0x3F800000#32 + sgn (x2 (ix1 r)) * Ideal.tanh (Ideal.sqrt (Ideal.ofBits .f32 0x00000000#32
    + ∑ k : Fin 64, val_main_v1 (F := Ideal) x0 x1 (idx_main_v2 (ix1 r) k)))) (Ideal.ofBits .f32 0x00000000#32) = _
  rw [ofBits_one, Ideal.ofBits_zero_f32, zero_add, relu_one_add]
  unfold rowVal
  refine congrArg (fun s => 1 + sgn (x2 (ix1 r)) * Ideal.tanh (Ideal.sqrt s)) (Finset.sum_congr rfl fun k _ => ?_)
  have hidx : idx_main_v2 (ix1 r) k = ix2 r k := funext fun a => Fin.ext (by match a with | ⟨0, _⟩ => rfl | ⟨1, _⟩ => rfl)
  rw [hidx]
  rfl

/-- The reference's result is the specified total. -/
theorem ref_eq (x0 x1 : (⟨S1048576x64, .f32⟩ : BufTy).Contents (Elt Ideal)) (x2 : (⟨S1048576, .i32⟩ : BufTy).Contents (Elt Ideal))
    (i : S_.Idx) : val_main_v13 (F := Ideal) x0 x1 x2 i = total x0 x1 x2 := by
  rw [val_main_v13_apply, val_main_cst_3_apply, Ideal.ofBits_def, Ideal.ofBits_zero_f32, zero_add,
    ← Equiv.sum_comp (idx1Equiv 1048576) (val_main_v12 (F := Ideal) x0 x1 x2)]
  have h : ∀ r : Fin 1048576, val_main_v12 (F := Ideal) x0 x1 x2 (idx1Equiv 1048576 r) = 1 + rowVal x0 x1 x2 r :=
    fun r => relu_row x0 x1 x2 r
  rw [Finset.sum_congr rfl fun r _ => h r, sum_one_add, Fintype.card_fin]
  rfl

end Cert.ReferenceIdeal.RefValue

end
-- ==== Proof.lean ====
/-
  The kernel pairs the rows of its two [1048576, 64] inputs into 128-wide rows, and over a grid of two cores times 64
  steps accumulates, per core, the sum over the step's rows of s · tanh (distance), s = −1 for the label 2 and 1
  otherwise; afterwards it adds the two cores' sums and the number of rows, 2^20.  The reference sums
  max (1 + s · tanh (distance)) 0 over the rows.  Over the extended reals the two agree on every input: tanh lies in
  [−1, 1], so the maximum with 0 is the identity, the ones add up to the number of rows, and a sum may be taken in any
  order and grouping.  No rewrite was made in idealizing the kernel, so the preservation claim is empty.
-/
import proofs.«111070_j34213709479938_2_alg».proof.Defs
import proofs.«111070_j34213709479938_2_alg».proof.Proof.Gen.Kernel
import proofs.«111070_j34213709479938_2_alg».proof.Proof.Gen.Kernel.Skeleton
import proofs.«111070_j34213709479938_2_alg».proof.Proof.Gen.Kernel.Launch
import proofs.«111070_j34213709479938_2_alg».proof.Proof.Gen.Kernel.Points
import proofs.«111070_j34213709479938_2_alg».proof.Proof.Gen.Kernel.Frame
import proofs.«111070_j34213709479938_2_alg».proof.Proof.Gen.KernelIdeal
import proofs.«111070_j34213709479938_2_alg».proof.Proof.Gen.KernelIdeal.Skeleton
import proofs.«111070_j34213709479938_2_alg».proof.Proof.Gen.KernelIdeal.Launch
import proofs.«111070_j34213709479938_2_alg».proof.Proof.Gen.KernelIdeal.Points
import proofs.«111070_j34213709479938_2_alg».proof.Proof.Gen.KernelIdeal.Frame
import proofs.«111070_j34213709479938_2_alg».proof.Proof.Gen.ReferenceIdeal
import proofs.«111070_j34213709479938_2_alg».proof.Proof.Gen.Pre_finite_inputs
import proofs.«111070_j34213709479938_2_alg».proof.Proof.Gen.ReferenceIdeal.Run
import proofs.«111070_j34213709479938_2_alg».proof.Proof.Gen.ReferenceIdeal.Read
import proofs.«111070_j34213709479938_2_alg».proof.Proof.KernelValue
import proofs.«111070_j34213709479938_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of array operations: it runs, and no operation writes an argument. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten in reading the kernel over the extended reals. -/
theorem preserves : Cert.preserves_Kernel_KernelIdeal := trivial

/-- From arguments that agree, both programs end at the number of rows plus the sum of the rows' terms. -/
theorem algebraic : Cert.algebraic_KernelIdeal_ReferenceIdeal := by
  intro m ρ m' ρ' _ hagree
  refine ⟨fun c => fun _ => Cert.LossSpec.total (Cert.KernelIdeal.Blocks.arg0 m c) (Cert.KernelIdeal.Blocks.arg1 m c)
    (Cert.KernelIdeal.Blocks.arg2 m c), Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2]
  funext i
  exact Cert.ReferenceIdeal.RefValue.ref_eq _ _ _ i

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
